-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128x1 .f32) (main_arg6 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x1 .f32 := Host.absf main_arg5
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128x1 : Shape := ⟨2, ![128, 1]⟩
abbrev S1 : Shape := ⟨1, ![1]⟩
abbrev S1x1 : Shape := ⟨2, ![1, 1]⟩
abbrev S4000x128 : Shape := ⟨2, ![4000, 128]⟩
abbrev S4000x1 : Shape := ⟨2, ![4000, 1]⟩
abbrev S1600000x1 : Shape := ⟨2, ![1600000, 1]⟩
abbrev S_ : Shape := ⟨0, ![]⟩
abbrev S1600000x128 : Shape := ⟨2, ![1600000, 128]⟩

abbrev nBuf : Space → Nat
  | .hbm => 25
  | .vmem => 7
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128x1, .f32⟩
  | .hbm, ⟨6, _⟩ => ⟨S1, .f32⟩
  | .hbm, ⟨7, _⟩ => ⟨S1x1, .f32⟩
  | .hbm, ⟨8, _⟩ => ⟨S100000x128, .f32⟩
  | .hbm, ⟨9, _⟩ => ⟨S1600000x1, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S128x1, .f32⟩
  | .local _ .vmem, ⟨4, _⟩ => ⟨S1x1, .f32⟩
  | .local _ .vmem, ⟨5, _⟩ => ⟨S4000x128, .f32⟩
  | .local _ .vmem, ⟨6, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1_S1x1 : S1.ShapeCasts S1x1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  broadcasts_S4000x1_S4000x128 : S4000x1.Broadcasts S4000x128
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S4000x128_S128x128_S4000x128_1_0_0_1_n_n_wf : DotDims.WF S4000x128 S128x128 S4000x128 [1] [0] [0] [1] [] []
  dot_S4000x128_S128x1_S4000x1_1_0_0_1_n_n_wf : DotDims.WF S4000x128 S128x1 S4000x1 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .f32 = 32 ∨ (Rect.block (s := S100000x128) S4000x128.size (cc0_transform_4 i) (hinb0_4 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128x1 : Shape := ⟨2, ![128, 1]⟩
abbrev S1 : Shape := ⟨1, ![1]⟩
abbrev S100000x1 : Shape := ⟨2, ![100000, 1]⟩
abbrev S1x1 : Shape := ⟨2, ![1, 1]⟩
abbrev S_ : Shape := ⟨0, ![]⟩
abbrev S1600000x1 : Shape := ⟨2, ![1600000, 1]⟩
abbrev S1600000x128 : Shape := ⟨2, ![1600000, 128]⟩

abbrev nBuf : Space → Nat
  | .hbm => 38
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128x1, .f32⟩
  | .hbm, ⟨6, _⟩ => ⟨S1, .f32⟩
  | .hbm, ⟨7, _⟩ => ⟨S100000x128, .f32⟩
  | .hbm, ⟨8, _⟩ => ⟨S100000x1, .f32⟩
  | .hbm, ⟨9, _⟩ => ⟨S1x1, .f32⟩
  | .hbm, ⟨10, _⟩ => ⟨S100000x1, .f32⟩
  | .hbm, ⟨11, _⟩ => ⟨S100000x1, .f32⟩
  | .hbm, ⟨12, _⟩ => ⟨S100000x1, .f32⟩
  | .hbm, ⟨13, _⟩ => ⟨S100000x1, .f32⟩
  | .hbm, ⟨14, _⟩ => ⟨S_, .f32⟩
  | .hbm, ⟨15, _⟩ => ⟨S100000x1, .f32⟩
  | .hbm, ⟨16, _⟩ => ⟨S100000x1, .f32⟩
  | .hbm, ⟨17, _⟩ => ⟨S_, .f32⟩
  | .hbm, ⟨18, _⟩ => ⟨S100000x1, .f32⟩
  | .hbm, ⟨19, _⟩ => ⟨S100000x1, .f32⟩
  | .hbm, ⟨20, _⟩ => ⟨S100000x128, .f32⟩
  | .hbm, ⟨21, _⟩ => ⟨S100000x128, .f32⟩
  | .hbm, ⟨22, _⟩ => ⟨S1600000x1, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .f32⟩
  | .hbm, ⟨32, _⟩ => ⟨S1600000x128, .f32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.GateSpec.lean ====
/-
  The gated feature transform of a graph convolution, as one function of its arrays.

  For node features `x` (one row per node, 128 entries), a weight matrix `W` (128 × 128), a gate column `w` (128 × 1)
  and a gate bias `b`, the transformed features are

      h (r, c) = σ (Σ k, x (r, k) · w (k, 0) + b) · Σ k, x (r, k) · W (k, c),      σ z = 1 / (1 + e^(-z)),

  row by row: each row of `x · W` is scaled by the logistic gate of that row's own logit. Nothing in a row depends on
  any other row, which is why computing the rows in blocks gives the same array.

  The definition is over an arbitrary number of rows, so that it reads both a block of rows and the whole array; all
  values are extended reals.
-/
import Idealize.ShloMosaic.PureOps.Ideal
import Idealize.ShloMosaic.Lib.ValueIdx

noncomputable section

open scoped BigOperators

namespace Cert.GateSpec

open Idealize.ShloMosaic Idealize.ShloMosaic.ValueIdx

/-- The single-precision pattern of `1.0` (sign 0, biased exponent 127, fraction 0) denotes the number one. -/
theorem one_f32 : Ideal.ofBits .f32 0x3F800000#32 = 1 := by
  simp [Ideal.ofBits, Ideal.ieee, -EReal.coe_mul]; norm_num

/-- The gate's logit of row `r`: the row against the gate column, plus the bias. -/
def logit {n : ℕ} (x : (⟨2, ![n, 128]⟩ : Shape).Idx → EReal) (w : (⟨2, ![128, 1]⟩ : Shape).Idx → EReal) (b : EReal)
    (r : Fin n) : EReal :=
  (∑ k : Fin 128, x (ix2 r k) * w (ix2 k (0 : Fin 1))) + b

/-- Entry `(r, c)` of the gated transform: the logistic of row `r`'s logit times entry `(r, c)` of `x · W`. -/
def gatedAt {n : ℕ} (x : (⟨2, ![n, 128]⟩ : Shape).Idx → EReal) (W : (⟨2, ![128, 128]⟩ : Shape).Idx → EReal)
    (w : (⟨2, ![128, 1]⟩ : Shape).Idx → EReal) (b : EReal) (r : Fin n) (c : Fin 128) : EReal :=
  Ideal.logistic (logit x w b r) * ∑ k : Fin 128, x (ix2 r k) * W (ix2 k c)

/-- The gated transform as an array: entry `i` is `gatedAt` at `i`'s two coordinates. -/
def gated {n : ℕ} (x : (⟨2, ![n, 128]⟩ : Shape).Idx → EReal) (W : (⟨2, ![128, 128]⟩ : Shape).Idx → EReal)
    (w : (⟨2, ![128, 1]⟩ : Shape).Idx → EReal) (b : EReal) : (⟨2, ![n, 128]⟩ : Shape).Idx → EReal :=
  fun i => gatedAt x W w b (i 0) (i 1)

theorem gated_ix2 {n : ℕ} (x : (⟨2, ![n, 128]⟩ : Shape).Idx → EReal) (W : (⟨2, ![128, 128]⟩ : Shape).Idx → EReal)
    (w : (⟨2, ![128, 1]⟩ : Shape).Idx → EReal) (b : EReal) (r : Fin n) (c : Fin 128) :
    gated x W w b (ix2 r c) = gatedAt x W w b r c := rfl

/-- A row of the gated transform depends on that row of `x` only: if row `r` of `x` and row `r'` of `x'` agree entry by
    entry, the two transforms agree along those rows. This is what lets the rows be computed in blocks. -/
theorem gatedAt_congr_rows {n n' : ℕ} (x : (⟨2, ![n, 128]⟩ : Shape).Idx → EReal) (x' : (⟨2, ![n', 128]⟩ : Shape).Idx → EReal)
    (W : (⟨2, ![128, 128]⟩ : Shape).Idx → EReal) (w : (⟨2, ![128, 1]⟩ : Shape).Idx → EReal) (b : EReal)
    (r : Fin n) (r' : Fin n') (h : ∀ k : Fin 128, x (ix2 r k) = x' (ix2 r' k)) (c : Fin 128) :
    gatedAt x W w b r c = gatedAt x' W w b r' c := by
  unfold gatedAt logit
  simp only [h]

/-- The logistic function spelt with a quotient: `1 / (1 + e^(-z))` with the quotient's conventions at the
    infinities, which is how the logistic is defined on the extended reals. -/
theorem logistic_eq_div (z : EReal) : Ideal.logistic z = Ideal.div 1 (1 + Ideal.exp (-z)) := rfl

end Cert.GateSpec

end
-- ==== Proof.LibPlainDot.lean ====
/-
  A plain matrix product read at an index, on the extended reals.

  For dimension numbers that contract the left operand's second axis against the right operand's first — an
  [M, K] array times a [K, P] array — the product into a zero accumulator, read at row `p` and column `q`, is
  `Σ k, l (p, k) · r (k, q)` over the K contraction coordinates. The contraction's index set has one axis; the sum is
  re-indexed through that axis's coordinate. The two facts about the free axes (the left index keeps the row, the right
  index keeps the column) are taken as hypotheses, since for given dimension numbers they hold by computation.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The matrix product into the zero accumulator at (p, q) is the sum over the contraction coordinate of the left
    operand at (p, k) times the right operand at (k, q). -/
theorem matmul_zero_apply {M K P : ℕ} {φ₁ φ₂ : FTy}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (prec : Option ContractPrecision)
    (l : FVec Ideal ⟨2, ![M, K]⟩ φ₁) (r : FVec Ideal ⟨2, ![K, P]⟩ φ₂) (p : Fin M) (q : Fin P) :
    FloatOps.matmul D prec l r (constant ⟨2, ![M, P]⟩ .f32 0x00000000#32) (ix2 p q)
      = ∑ k : Fin K, l (ix2 p k) * r (ix2 k q) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 k q := funext fun a => Fin.ext (by
    match a with
    | ⟨0, _⟩ => exact (D.rhsIdx_val_of_single hrc _ _).trans hk
    | ⟨1, _⟩ => exact hr1 _ _)
  rw [el, er]

end Cert.LibPlainDot

end
-- ==== Proof.LibColumn.lean ====
/-
  A column of per-row values used against a matrix.

  A vector of length `a` written as an `[a, 1]` column (a reshape that appends a unit axis) holds, at row `i`, the
  vector's entry `i`; and an `[a, 1]` column broadcast along the second axis to `[a, b]` holds, at `(p, c)`, the
  column's entry of row `p`, whatever the column coordinate `c`. Both are read off the general index lemmas for a
  shape cast (equal row-major positions) and for a broadcast (unit axes read at 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.KernelGate.lean ====
/-
  What the kernel body stores for one block of rows, entry by entry.

  The body loads a block of 4000 rows of `x`, the whole `W`, the whole gate column `w` and the one-entry bias. It forms
  two matrix products into zero accumulators (the operands first narrowed to a 16-bit format, which changes no value on
  the extended reals), adds the bias to the gate product (the one entry spread down the 4000 rows), applies the
  logistic function to that column, spreads the column along the 128 feature coordinates and multiplies by the feature
  product. At entry `(p, q)` of the block this is the gated transform of the block's rows: the logistic of row `p`'s
  logit times entry `(p, q)` of the block's `x · W`.
-/
import proofs.«107837_j56977036148823_1_alg».proof.Proof.Gen.KernelIdeal.Skeleton
import proofs.«107837_j56977036148823_1_alg».proof.Proof.GateSpec
import proofs.«107837_j56977036148823_1_alg».proof.Proof.LibPlainDot
import proofs.«107837_j56977036148823_1_alg».proof.Proof.LibColumn
import Idealize.ShloMosaic.Lib.Pipeline.Value
import Idealize.ShloMosaic.Lib.ValueIdx

noncomputable section

open scoped BigOperators

namespace Cert.KernelGate

open Cert.KernelIdeal Cert.KernelIdeal.Gen Idealize.ShloMosaic Idealize.ShloMosaic.ValueIdx
open Cert.GateSpec

/-! ## The two products' free axes -/

theorem featDot_lhs0 (j : S4000x128.Idx) (c : dot_S4000x128_S128x128_S4000x128_1_0_0_1_n_n.contr.Idx) :
    (dot_S4000x128_S128x128_S4000x128_1_0_0_1_n_n.lhsIdx j c 0).val = (j 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl
theorem featDot_rhs1 (j : S4000x128.Idx) (c : dot_S4000x128_S128x128_S4000x128_1_0_0_1_n_n.contr.Idx) :
    (dot_S4000x128_S128x128_S4000x128_1_0_0_1_n_n.rhsIdx j c 1).val = (j 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl
theorem gateDot_lhs0 (j : S4000x1.Idx) (c : dot_S4000x128_S128x1_S4000x1_1_0_0_1_n_n.contr.Idx) :
    (dot_S4000x128_S128x1_S4000x1_1_0_0_1_n_n.lhsIdx j c 0).val = (j 0).val := by
  unfold DotDims.lhsIdx
  rw [dif_neg (show ¬(0 : Fin S4000x128.rank) ∈ dot_S4000x128_S128x1_S4000x1_1_0_0_1_n_n.lhsBatch by decide),
    dif_pos (show (0 : Fin S4000x128.rank) ∈ dot_S4000x128_S128x1_S4000x1_1_0_0_1_n_n.lhsNonContracting by decide)]
  rfl
theorem gateDot_rhs1 (j : S4000x1.Idx) (c : dot_S4000x128_S128x1_S4000x1_1_0_0_1_n_n.contr.Idx) :
    (dot_S4000x128_S128x1_S4000x1_1_0_0_1_n_n.rhsIdx j c 1).val = (j 1).val := by
  unfold DotDims.rhsIdx
  rw [dif_neg (show ¬(1 : Fin S128x1.rank) ∈ dot_S4000x128_S128x1_S4000x1_1_0_0_1_n_n.rhsBatch by decide),
    dif_pos (show (1 : Fin S128x1.rank) ∈ dot_S4000x128_S128x1_S4000x1_1_0_0_1_n_n.rhsNonContracting by decide)]
  rfl

/-! ## The pieces, each at an entry -/

/-- The feature product of a block at `(p, q)`: row `p` of the block against column `q` of `W`. -/
theorem featProduct_apply (xb : FVec Ideal S4000x128 .bf16) (Wb : FVec Ideal S128x128 .bf16) (p : Fin 4000) (q : Fin 128) :
    matmul dot_S4000x128_S128x128_S4000x128_1_0_0_1_n_n none xb Wb (constant (F := Ideal) S4000x128 .f32 0x00000000#32) (ix2 p q)
      = ∑ k : Fin 128, xb (ix2 p k) * Wb (ix2 k q) :=
  Cert.LibPlainDot.matmul_zero_apply (M := 4000) (K := 128) (P := 128) dot_S4000x128_S128x128_S4000x128_1_0_0_1_n_n rfl rfl
    featDot_lhs0 featDot_rhs1 rfl rfl none xb Wb p q

/-- The gate product of a block at row `p`: row `p` of the block against the gate column. -/
theorem gateProduct_apply (xb : FVec Ideal S4000x128 .bf16) (wb : FVec Ideal S128x1 .bf16) (p : Fin 4000) (u : Fin 1) :
    matmul dot_S4000x128_S128x1_S4000x1_1_0_0_1_n_n none xb wb (constant (F := Ideal) S4000x1 .f32 0x00000000#32) (ix2 p u)
      = ∑ k : Fin 128, xb (ix2 p k) * wb (ix2 k u) :=
  Cert.LibPlainDot.matmul_zero_apply (M := 4000) (K := 128) (P := 1) dot_S4000x128_S128x1_S4000x1_1_0_0_1_n_n rfl rfl
    gateDot_lhs0 gateDot_rhs1 rfl rfl none xb wb p u

/-- The bias spread down the rows: a `[1, 1]` array broadcast to `[4000, 1]` reads its one entry at every row. -/
theorem biasColumn_apply (b : FVec Ideal S1x1 .f32) (p : Fin 4000) (u : Fin 1) :
    broadcastTo S4000x1 (shapeCast S1x1 b shapeCasts_S1x1_S1x1) broadcasts_S1x1_S4000x1 (ix2 p u)
      = b (ix2 (0 : Fin 1) (0 : Fin 1)) := by
  rw [shapeCast_self]
  refine broadcastTo_apply b broadcasts_S1x1_S4000x1 (ix2 p u) (ix2 (0 : Fin 1) (0 : Fin 1)) fun a => ?_
  match a with
  | ⟨0, _⟩ => show 0 = if (1 : Nat) = 1 then 0 else _; rw [if_pos rfl]
  | ⟨1, _⟩ => show 0 = if (1 : Nat) = 1 then 0 else _; rw [if_pos rfl]

/-! ## The stored block -/

/-- Entry `(p, q)` of what the body stores is the gated transform of the loaded block of rows at `(p, q)`, with the
    bias read at its one entry. -/
theorem payload_apply (x0 : S4000x128.Idx → EReal) (x1 : S128x128.Idx → EReal) (x2 : S128x1.Idx → EReal)
    (x3 : S1x1.Idx → EReal) (p : Fin 4000) (q : Fin 128) :
    k0_pay1 (F := Ideal) x0 x1 x2 x3 (ix2 p q) = gatedAt x0 x1 x2 (x3 (ix2 (0 : Fin 1) (0 : Fin 1))) p q := by
  unfold k0_pay1
  rw [mulf_apply, Cert.LibColumn.broadcastTo_a1_ab_apply (a := 4000) (b := 128) _ broadcasts_S4000x1_S4000x128 p q]
  show Ideal.logistic (matmul dot_S4000x128_S128x1_S4000x1_1_0_0_1_n_n none (truncf .bf16 x0 bitsLt_bf16_f32) (truncf .bf16 x2 bitsLt_bf16_f32) (constant (F := Ideal) S4000x1 .f32 0x00000000#32) (ix2 p (0 : Fin 1))
        + broadcastTo S4000x1 (shapeCast S1x1 x3 shapeCasts_S1x1_S1x1) broadcasts_S1x1_S4000x1 (ix2 p (0 : Fin 1)))
      * matmul dot_S4000x128_S128x128_S4000x128_1_0_0_1_n_n none (truncf .bf16 x0 bitsLt_bf16_f32) (truncf .bf16 x1 bitsLt_bf16_f32) (constant (F := Ideal) S4000x128 .f32 0x00000000#32) (ix2 p q) = _
  rw [gateProduct_apply, featProduct_apply, biasColumn_apply]
  rfl

end Cert.KernelGate

end
-- ==== Proof.KernelArray.lean ====
/-
  From blocks of rows to the whole array of transformed features.

  The grid has 25 points. At point `t` the pipeline hands the body rows `4000 t … 4000 t + 3999` of `x` (all 128
  columns), the whole of `W`, the whole gate column and the one-entry bias, and writes the body's block back over the
  same rows of the result array. Since a row of the gated transform depends on that row of `x` only, what point `t`
  writes back is the gated transform OF THE WHOLE ARRAYS read through block `t`; and every row `r` lies in the block
  of point `r / 4000`. So after the last point the result array is the gated transform of the arguments.
  The bias reaches the kernel as a `[1, 1]` array, a reshape of the one-entry argument: its entry is the argument's.
-/
import proofs.«107837_j56977036148823_1_alg».proof.Proof.Gen.KernelIdeal.Frame
import proofs.«107837_j56977036148823_1_alg».proof.Proof.KernelGate
import Idealize.ShloMosaic.Lib.Pipeline.Value
import Idealize.ShloMosaic.Lib.StableHlo.Run

noncomputable section

namespace Cert.KernelArray

open Cert.KernelIdeal Cert.KernelIdeal.Gen Idealize.ShloMosaic Idealize.ShloMosaic.TcCoe Idealize.ShloMosaic.ValueIdx
open Idealize.SL.Sem Idealize.ShloMosaic.StableHlo
open Cert.GateSpec

variable (m : (ℓ : Loc nD τ sig) → Buf (Elt Ideal) ℓ)

/-- Every access of the body starts at the origin of its buffer. -/
theorem origin : (![0, 0] : Fin 2 → Nat) = fun _ => 0 := funext fun a => by fin_cases a <;> rfl

/-- The block index maps over the grid: the row blocks of `x` and of the result move with the point, everything else
    stays at block 0. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The stored block is the gated transform of the whole arrays, read through the block -/

/-- The stored block against the whole arrays: if the loaded block of `x` holds rows `r0, r0 + 1, …` of `X`, the other
    loads are the whole `W`, the whole gate column and a `[1, 1]` array holding `b`, then the stored entry at `y` is the
    gated transform of `X` at the array index whose row is `r0` plus `y`'s and whose column is `y`'s. -/
theorem stored_eq_gated (X : S100000x128.Idx → EReal) (W : S128x128.Idx → EReal) (w : S128x1.Idx → EReal) (b : EReal)
    (x0 : S4000x128.Idx → EReal) (x1 : S128x128.Idx → EReal) (x2 : S128x1.Idx → EReal) (x3 : S1x1.Idx → EReal) (r0 : Nat)
    (hx : ∀ (p : Fin 4000) (k : Fin 128) (h : r0 + p.val < 100000), x0 (ix2 p k) = X (ix2 ⟨r0 + p.val, h⟩ k))
    (hW : x1 = W) (hw : x2 = w) (hb : x3 (ix2 (0 : Fin 1) (0 : Fin 1)) = b)
    (y : S4000x128.Idx) (i : S100000x128.Idx) (hi0 : (i 0).val = r0 + (y 0).val) (hi1 : (i 1).val = (y 1).val) :
    k0_pay1 (F := Ideal) x0 x1 x2 x3 y = gated X W w b i := by
  obtain ⟨p, q, rfl⟩ : ∃ (p : Fin 4000) (q : Fin 128), y = ix2 p q := ⟨y 0, y 1, eq_ix2 y⟩
  obtain ⟨r, c, rfl⟩ : ∃ (r : Fin 100000) (c : Fin 128), i = ix2 r c := ⟨i 0, i 1, eq_ix2 i⟩
  have hr : r.val = r0 + p.val := hi0
  have hc : c = q := Fin.ext hi1
  subst hc hW hw hb
  rw [Cert.KernelGate.payload_apply, gated_ix2]
  refine gatedAt_congr_rows x0 X x1 x2 _ p r (fun k => ?_) c
  rw [hx p k (by have := r.isLt; omega)]
  exact congrArg X (funext fun a => Fin.ext (by match a with | ⟨0, _⟩ => exact hr.symm | ⟨1, _⟩ => rfl))

/-- WHAT POINT `t` WRITES BACK is block `t` of the gated transform of the arrays as the region finds them. -/
theorem flushed_eq (c : Dev nD) (t : Fin cfg0.N) :
    (dats m 0 c).flushed 4 t = ((cfg0.win 4).blk t).view.read (Elt Ideal)
      (gated (V m c main_arg0) (V m c main_arg4) (V m c main_arg5) (V m c main_v0 (ix2 (0 : Fin 1) (0 : Fin 1)))) := by
  show (cfg0.win 4).cut (grid0.coords t) ((dats m 0 c).after 4 t) = _
  rw [after0_4]
  unfold out0_4
  rw [View.canon_unit_zero origin]
  simp only [View.ld_unit_zero (S := S4000x128) origin, View.ld_unit_zero (S := S128x128) origin,
    View.ld_unit_zero (S := S128x1) origin, View.ld_unit_zero (S := S1x1) origin]
  obtain ⟨e00, e01, e10, e11, e20, e21, e30, e31, e40, e41⟩ := index_facts t
  funext j
  refine stored_eq_gated (V m c main_arg0) (V m c main_arg4) (V m c main_arg5) (V m c main_v0 (ix2 (0 : Fin 1) (0 : Fin 1)))
    (iblk m c 0 t) (iblk m c 1 t) (iblk m c 2 t) (iblk m c 3 t) (t.val * 4000) ?_ ?_ ?_ ?_ _ _ ?_ ?_
  · intro p k h
    show V m c main_arg0 (((cfg0.win 0).blk t).view.emb (ix2 p k)) = _
    refine congrArg (V m c main_arg0) (funext fun a => Fin.ext ?_)
    match a with
    | ⟨0, _⟩ => show win0_0.index t (0 : Fin 2) * 4000 + 1 * p.val = t.val * 4000 + p.val; omega
    | ⟨1, _⟩ => show win0_0.index t (1 : Fin 2) * 128 + 1 * k.val = k.val; omega
  · funext y
    show V m c main_arg4 (((cfg0.win 1).blk t).view.emb y) = V m c main_arg4 y
    refine congrArg (V m c main_arg4) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · funext y
    show V m c main_arg5 (((cfg0.win 2).blk t).view.emb y) = V m c main_arg5 y
    refine congrArg (V m c main_arg5) (funext fun a => Fin.ext ?_)
    match a with
    | ⟨0, _⟩ => show win0_2.index t (0 : Fin 2) * 128 + 1 * (y 0).val = (y 0).val; omega
    | ⟨1, _⟩ => show win0_2.index t (1 : Fin 2) * 1 + 1 * (y 1).val = (y 1).val; omega
  · show V m c main_v0 (((cfg0.win 3).blk t).view.emb (ix2 (0 : Fin 1) (0 : Fin 1))) = V m c main_v0 (ix2 (0 : Fin 1) (0 : Fin 1))
    refine congrArg (V m c main_v0) (funext fun a => Fin.ext ?_)
    match a with
    | ⟨0, _⟩ => show win0_3.index t (0 : Fin 2) * 1 + 1 * 0 = 0; omega
    | ⟨1, _⟩ => show win0_3.index t (1 : Fin 2) * 1 + 1 * 0 = 0; omega
  · show win0_4.index t (0 : Fin 2) * 4000 + 1 * (j 0).val = t.val * 4000 + (j 0).val; omega
  · show win0_4.index t (1 : Fin 2) * 128 + 1 * (j 1).val = (j 1).val; omega

/-! ## Every row lies in some point's block -/

/-- An index of the result array is in point `t`'s block iff each coordinate is in the block's range on its axis. -/
theorem mem_block (t : Fin cfg0.N) (i : S100000x128.Idx) :
    i ∈ ((cfg0.win 4).blk t).view.set ↔ ∀ a : Fin 2, win0_4.index t a * S4000x128.size a ≤ (i a).val
      ∧ (i a).val < win0_4.index t a * S4000x128.size a + S4000x128.size a := by
  show i ∈ ((View.whole main_v1).slice (win0_4.rect t)).set ↔ _
  rw [View.set_slice_whole, Rect.mem_set_unit]
  exact Iff.rfl

/-- Row `r` is written back by point `r / 4000`. -/
theorem covered (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hlt : (i 0).val / 4000 < cfg0.N := by rw [show cfg0.N = 25 from N_0]; omega
  obtain ⟨-, -, -, -, -, -, -, -, e40, e41⟩ := index_facts ⟨(i 0).val / 4000, hlt⟩
  have e40' : win0_4.index ⟨(i 0).val / 4000, hlt⟩ (0 : Fin 2) = (i 0).val / 4000 := e40
  refine ⟨⟨(i 0).val / 4000, hlt⟩, flush0_4 _, ?_⟩
  rw [mem_block]
  intro a
  match a with
  | ⟨0, _⟩ =>
    show win0_4.index ⟨(i 0).val / 4000, hlt⟩ (0 : Fin 2) * 4000 ≤ (i 0).val
      ∧ (i 0).val < win0_4.index ⟨(i 0).val / 4000, hlt⟩ (0 : Fin 2) * 4000 + 4000
    omega
  | ⟨1, _⟩ =>
    show win0_4.index ⟨(i 0).val / 4000, hlt⟩ (1 : Fin 2) * 128 ≤ (i 1).val
      ∧ (i 1).val < win0_4.index ⟨(i 0).val / 4000, hlt⟩ (1 : Fin 2) * 128 + 128
    omega

/-! ## The arrays the region finds, and the result array after it -/

/-- The `[1, 1]` bias array the region finds is the reshape of the one-entry argument; its entry is the argument's. -/
theorem bias_entry (c : Dev nD) :
    V m c main_v0 (ix2 (0 : Fin 1) (0 : Fin 1)) = m ((c : Thread nD τ).loc main_arg6) (ix1 (0 : Fin 1)) := by
  have e : (V m c main_v0 : S1x1.Idx → EReal) = shapeCast S1x1 (m ((c : Thread nD τ).loc main_arg6)) shapeCasts_S1_S1x1 := by
    show StableHlo.after hostOps0 (fun b => m (c, b)) (Proc.devRef .tc main_v0) = _
    after_results
    rfl
  rw [e]
  exact Cert.LibColumn.shapeCast_a_a1_apply (a := 1) _ shapeCasts_S1_S1x1 (0 : Fin 1) (0 : Fin 1)

/-- THE RESULT ARRAY of the region after the last point: the gated transform of the arguments. -/
theorem features_array (c : Dev nD) :
    (dats m 0 c).arrAt 4 cfg0.N
      = gated (m ((c : Thread nD τ).loc main_arg0)) (m ((c : Thread nD τ).loc main_arg4)) (m ((c : Thread nD τ).loc main_arg5))
          (m ((c : Thread nD τ).loc main_arg6) (ix1 (0 : Fin 1))) := by
  rw [← V_main_arg0 m c, ← V_main_arg4 m c, ← V_main_arg5 m c, ← bias_entry m c]
  exact (dats m 0 c).arrAt_eq_of_cover 4 _ (fun t _ => flushed_eq m c t) covered

end Cert.KernelArray

end
-- ==== Proof.Aggregate.lean ====
/-
  The sparse aggregation both programs end with, as one function of the transformed features.

  Given transformed features `h` (one row per node), edges `(row e, col e)` with values `vals e`: an edge's source index
  is first normalised (a negative index counts from the end: 100000 is added to it), row `col e` of `h` is gathered,
  scaled by `vals e`, and added into row `row e` of an array of zeros:

      out = scatter-add over e of  vals e · h [col e]  into row  row e.

  Both programs apply these same operations, in this order, to their own `h`. Nothing is proved ABOUT the gather or
  the scatter-add here: the function is only named, so that two results are equal as soon as the two `h` are.
-/
import proofs.«107837_j56977036148823_1_alg».proof.Proof.Gen.KernelIdeal
import Idealize.ShloMosaic.PureOps.Ideal

noncomputable section

namespace Cert.Aggregate

open Cert.KernelIdeal Cert.KernelIdeal.Gen Idealize.ShloMosaic

/-- The aggregation of the features `h` along the edges `(row, col, vals)`. -/
def aggregate (h : S100000x128.Idx → EReal) (row col : S1600000.Idx → BitVec 32) (vals : S1600000.Idx → EReal) :
    S100000x128.Idx → EReal :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 row)
    (mulf (F := Ideal) (broadcastInDim S1600000x128 ![0, 1] bcast_S1600000x1_S1600000x128_0_1
        (broadcastInDim S1600000x1 ![0] bcast_S1600000_S1600000x1_0 vals))
      (Host.gather gather_S100000x128_S1600000x1_S1600000x128_1_0_n_n_0_1_1128 h
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col))))

end Cert.Aggregate

end
-- ==== Proof.KernelRun.lean ====
/-
  The kernel program's run, with its result named.

  After the region, the program's remaining host operations read the region's result array (the transformed features)
  and three argument arrays (edge rows, edge columns, edge values), none of which the region or any later operation
  writes. The region's result array is the gated transform of the arguments; so the program's result is the
  aggregation of that gated transform along the argument edges, and every argument array ends as it started.
-/
import proofs.«107837_j56977036148823_1_alg».proof.Proof.KernelArray
import proofs.«107837_j56977036148823_1_alg».proof.Proof.Aggregate

noncomputable section

namespace Cert.KernelRun

open Cert.KernelIdeal Cert.KernelIdeal.Gen Idealize.ShloMosaic Idealize.ShloMosaic.TcCoe Idealize.ShloMosaic.ValueIdx
open Idealize.SL.Sem Idealize.ShloMosaic.StableHlo
open Cert.GateSpec Cert.Aggregate

variable (m : (ℓ : Loc nD τ sig) → Buf (Elt Ideal) ℓ) (ρ : Dev nD → PrngReg)

/-- The program's result as a function of the argument arrays on core `c`. -/
abbrev result (c : Dev nD) : S100000x128.Idx → EReal :=
  aggregate
    (gated (m ((c : Thread nD τ).loc main_arg0)) (m ((c : Thread nD τ).loc main_arg4)) (m ((c : Thread nD τ).loc main_arg5))
      (m ((c : Thread nD τ).loc main_arg6) (ix1 (0 : Fin 1))))
    (m ((c : Thread nD τ).loc main_arg1)) (m ((c : Thread nD τ).loc main_arg2)) (m ((c : Thread nD τ).loc main_arg3))

/-- What the host operations after the region leave in the result buffer: the aggregation of the region's result
    array, which is the gated transform, along the edges as launched. -/
theorem tail_value (c : Dev nD) :
    Pipeline.afterTail₀ cfgs (dats m) 0 (V0 m) [hostOps1] c main_v14 = result m c := by
  unfold Pipeline.afterTail₀
  show StableHlo.after hostOps1 _ (Proc.devRef .tc main_v14) = _
  after_results
  have h1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  have h2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  have h3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans
      (V_main_arg3 m c)
  have hv : Pipeline.withArrays (cfgs 0).spec c (V0 m c) (fun w => (dats m 0 c).arrAt w (cfgs 0).N) (Proc.devRef .tc main_v1)
      = gated (m ((c : Thread nD τ).loc main_arg0)) (m ((c : Thread nD τ).loc main_arg4)) (m ((c : Thread nD τ).loc main_arg5))
          (m ((c : Thread nD τ).loc main_arg6) (ix1 (0 : Fin 1))) :=
    (Pipeline.withArrays_arr spec0 launch0.win.arr_inj c (V0 m c) (fun w => (dats m 0 c).arrAt w (cfgs 0).N) 4).trans
      (Cert.KernelArray.features_array m c)
  rw [h1, h2, h3, hv]
  rfl

/-- THE RUN of the kernel program on the extended reals: every weakly fair execution terminates, the result buffer
    holds the aggregation of the gated transform of the arguments, and the arguments are unchanged. -/
theorem run : θ_run defs (onTc (τ := τ) (main (F := Ideal))) ⟨m, fun _ => 0, ρ⟩ (fun r => ∀ c : Dev nD,
      r.2.mem ((c.tc : Thread nD τ).loc main_v14) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v14 (Pipeline.mem_restRefs_of main_v14 (by decide) (by decide))).trans (tail_value m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 1).trans (((dats m 0 c).arrAt_in 1 rfl _).trans ((A_eq m c 1).trans (V_main_arg4 m c))),
      ((h c).1 2).trans (((dats m 0 c).arrAt_in 2 rfl _).trans ((A_eq m c 2).trans (V_main_arg5 m c))),
      ((h c).2 main_arg6 (Pipeline.mem_restRefs_of main_arg6 (by decide) (by decide))).trans (W_main_arg6 m (dats m) c)⟩)
    (run_main m ρ)

end Cert.KernelRun

end
-- ==== Proof.RefGate.lean ====
/-
  The reference's transformed features are the gated transform.

  The reference computes `x · W` and `x · w` as two whole products, adds the bias (a one-entry array read at its one
  entry, whatever the row), forms `1 / (1 + e^(-z))` with a negation, an exponential, a sum with the literal 1.0 and a
  quotient of the literal 1.0, spreads the resulting column along the 128 feature coordinates and multiplies. Read at
  an entry `(p, q)`, both products are sums over the 128 contraction coordinates of row `p`, the column is read at row
  `p`, and the quotient form is the logistic function by its definition on the extended reals.
-/
import proofs.«107837_j56977036148823_1_alg».proof.Proof.Gen.ReferenceIdeal.Read
import proofs.«107837_j56977036148823_1_alg».proof.Proof.GateSpec

noncomputable section

open scoped BigOperators

namespace Cert.RefGate

open Cert.ReferenceIdeal Cert.ReferenceIdeal.Gen Cert.ReferenceIdeal.Read Idealize.ShloMosaic Idealize.ShloMosaic.ValueIdx
open Cert.GateSpec

/-- The features product's left index at entry `(p, q)`, contraction coordinate `k`, is `(p, k)`. -/
theorem lidx_v0 (p : Fin 100000) (q k : Fin 128) : lidx_main_v0 (ix2 p q) k = ix2 p k :=
  funext fun a => Fin.ext (by match a with | ⟨0, _⟩ => rfl | ⟨1, _⟩ => rfl)
/-- and its right index is `(k, q)`. -/
theorem ridx_v0 (p : Fin 100000) (q k : Fin 128) : ridx_main_v0 (ix2 p q) k = ix2 k q :=
  funext fun a => Fin.ext (by match a with | ⟨0, _⟩ => rfl | ⟨1, _⟩ => rfl)
/-- The gate product, read where the spread column is read for entry `(p, q)`: left index `(p, k)`, -/
theorem lidx_v1 (p : Fin 100000) (q k : Fin 128) : lidx_main_v1 (idx_main_v11 (ix2 p q)) k = ix2 p k :=
  funext fun a => Fin.ext (by match a with | ⟨0, _⟩ => rfl | ⟨1, _⟩ => rfl)
/-- right index `(k, 0)`. -/
theorem ridx_v1 (p : Fin 100000) (q k : Fin 128) : ridx_main_v1 (idx_main_v11 (ix2 p q)) k = ix2 k (0 : Fin 1) :=
  funext fun a => Fin.ext (by match a with | ⟨0, _⟩ => rfl | ⟨1, _⟩ => rfl)
/-- The bias is read at its one entry. -/
theorem idx_bias (j : S100000x1.Idx) : idx_main_v2 (idx_main_v3 j) = ix1 (0 : Fin 1) :=
  funext fun a => Fin.ext (by match a with | ⟨0, _⟩ => rfl)

/-- The reference's transformed features, as an array, are the gated transform of its arguments. -/
theorem features_eq (x : S100000x128.Idx → EReal) (W : S128x128.Idx → EReal) (w : S128x1.Idx → EReal) (b : S1.Idx → EReal) :
    val_main_v12 (F := Ideal) x W w b = gated x W w (b (ix1 (0 : Fin 1))) := by
  funext i
  obtain ⟨p, q, rfl⟩ : ∃ (p : Fin 100000) (q : Fin 128), i = ix2 p q := ⟨i 0, i 1, eq_ix2 i⟩
  rw [gated_ix2, val_main_v12_apply, val_main_v11_apply, val_main_v10_apply, val_main_v9_apply, val_main_cst_0_apply,
    val_main_v8_apply, val_main_v7_apply, val_main_cst_apply, val_main_v6_apply, val_main_v5_apply, val_main_v4_apply,
    val_main_v1_apply, val_main_v3_apply, val_main_v2_apply, val_main_v0_apply]
  simp only [lidx_v0, ridx_v0, lidx_v1, ridx_v1, idx_bias, Ideal.mulf_def, Ideal.hostDivf_def, Ideal.addf_def,
    Ideal.hostUnary_exp_def, Ideal.hostNegf_def, Ideal.negf_def, Ideal.ofBits_def, one_f32]
  rfl

end Cert.RefGate

end
-- ==== Proof.RefResult.lean ====
/-
  The reference's result is the aggregation of the gated transform.

  The reference's last operations — normalise the edge columns, gather rows of its transformed features, scale by the
  edge values, scatter-add into rows of zeros — are, operation for operation, the aggregation the kernel program ends
  with, applied to the reference's own transformed features. Those features are the gated transform of the arguments.
-/
import proofs.«107837_j56977036148823_1_alg».proof.Proof.Gen.ReferenceIdeal.Read
import proofs.«107837_j56977036148823_1_alg».proof.Proof.RefGate
import proofs.«107837_j56977036148823_1_alg».proof.Proof.Aggregate

noncomputable section

namespace Cert.RefResult

open Cert.ReferenceIdeal Cert.ReferenceIdeal.Gen Cert.ReferenceIdeal.Read Idealize.ShloMosaic Idealize.ShloMosaic.ValueIdx

/-- The reference's result stage is the aggregation of its transformed-features stage along the edges. -/
theorem result_stage (x0 : S100000x128.Idx → EReal) (x1 x2 : S1600000.Idx → BitVec 32) (x3 : S1600000.Idx → EReal)
    (x4 : S128x128.Idx → EReal) (x5 : S128x1.Idx → EReal) (x6 : S1.Idx → EReal) :
    val_main_v25 (F := Ideal) x0 x1 x2 x3 x4 x5 x6
      = Cert.Aggregate.aggregate (val_main_v12 (F := Ideal) x0 x4 x5 x6) x1 x2 x3 := rfl

/-- The reference's result is the aggregation of the gated transform of its arguments. -/
theorem result_eq (x0 : S100000x128.Idx → EReal) (x1 x2 : S1600000.Idx → BitVec 32) (x3 : S1600000.Idx → EReal)
    (x4 : S128x128.Idx → EReal) (x5 : S128x1.Idx → EReal) (x6 : S1.Idx → EReal) :
    val_main_v25 (F := Ideal) x0 x1 x2 x3 x4 x5 x6
      = Cert.Aggregate.aggregate (Cert.GateSpec.gated x0 x4 x5 (x6 (ix1 (0 : Fin 1)))) x1 x2 x3 := by
  rw [result_stage, Cert.RefGate.features_eq]

end Cert.RefResult

end
-- ==== Proof.lean ====
/-
  A gated graph convolution: the kernel program and its reference compute the same array on the extended reals.

  Both programs take node features `x` (100000 × 128), a weight matrix `W` (128 × 128), a gate column `w` (128 × 1),
  a gate bias `b` and a list of 1600000 weighted edges `(row, col, vals)`. Both compute the transformed features

      h (r, c) = σ (Σ k, x (r, k) · w (k, 0) + b) · Σ k, x (r, k) · W (k, c),        σ z = 1 / (1 + e^(-z)),

  and then the aggregation  out = scatter-add over the edges e of  vals e · h [col e]  into row  row e.

  They differ in how `h` is obtained. The kernel program computes it 4000 rows at a time (25 blocks), each block by two
  matrix products of operands narrowed to a 16-bit format, the one-entry bias spread down the rows, the logistic as
  one operation, and the gate column spread across the 128 features; the reference computes two whole products and
  spells the logistic as a negation, an exponential, a sum with 1 and a quotient of 1. On the extended reals narrowing
  is the identity, a product into a zero accumulator is the plain sum over the contraction coordinate on both sides
  (in the same order), the logistic IS that quotient by definition, and a row of `h` depends on that row of `x` only, so
  the blocks glue to the whole array (Proof/GateSpec, Proof/KernelGate, Proof/KernelArray; Proof/RefGate). The
  aggregation is the same sequence of operations in both programs, so it is carried as one function of `h` and never
  opened (Proof/Aggregate, Proof/KernelRun, Proof/RefResult). No step distributes a product over a sum or cancels, so
  the finiteness of the inputs is not used.

  The three frame claims are the generated frame certificates (the reference's from its generated run), and the
  idealization rewrote nothing, so there is nothing to preserve.
-/
import proofs.«107837_j56977036148823_1_alg».proof.Defs
import proofs.«107837_j56977036148823_1_alg».proof.Proof.Gen.Kernel
import proofs.«107837_j56977036148823_1_alg».proof.Proof.Gen.Kernel.Skeleton
import proofs.«107837_j56977036148823_1_alg».proof.Proof.Gen.Kernel.Launch
import proofs.«107837_j56977036148823_1_alg».proof.Proof.Gen.Kernel.Points
import proofs.«107837_j56977036148823_1_alg».proof.Proof.Gen.Kernel.Frame
import proofs.«107837_j56977036148823_1_alg».proof.Proof.Gen.KernelIdeal
import proofs.«107837_j56977036148823_1_alg».proof.Proof.Gen.KernelIdeal.Skeleton
import proofs.«107837_j56977036148823_1_alg».proof.Proof.Gen.KernelIdeal.Launch
import proofs.«107837_j56977036148823_1_alg».proof.Proof.Gen.KernelIdeal.Points
import proofs.«107837_j56977036148823_1_alg».proof.Proof.Gen.KernelIdeal.Frame
import proofs.«107837_j56977036148823_1_alg».proof.Proof.Gen.ReferenceIdeal
import proofs.«107837_j56977036148823_1_alg».proof.Proof.Gen.ReferenceIdeal.Run
import proofs.«107837_j56977036148823_1_alg».proof.Proof.Gen.ReferenceIdeal.Read
import proofs.«107837_j56977036148823_1_alg».proof.Proof.Gen.Pre_finite_inputs
import proofs.«107837_j56977036148823_1_alg».proof.Proof.KernelRun
import proofs.«107837_j56977036148823_1_alg».proof.Proof.RefResult
import Idealize.ShloMosaic.Adequacy
import Idealize.ShloMosaic.Init

noncomputable section

namespace Cert.Proof

open Idealize.ShloMosaic Idealize.SL.Sem

/-- The kernel program as printed runs and leaves its arguments unchanged. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, both programs end with the aggregation of the gated transform of those
    arguments: the kernel program by its run, the reference by its run read as the same two functions. -/
theorem algebraic : Cert.algebraic_KernelIdeal_ReferenceIdeal := by
  intro m ρ m' ρ' _ hagree
  refine ⟨fun c => Cert.KernelRun.result m c, Cert.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.RefResult.result_eq, (hagree c).1, (hagree c).2.1, (hagree c).2.2.1,
    (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
